-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x4096 : Shape := ⟨3, ![16, 512, 4096]⟩
abbrev S_ : Shape := ⟨0, ![]⟩

class Facts : Prop where
  bcast_S_S16x512x4096 : S_.BroadcastsInDim S16x512x4096 (![] : Fin 0 → Fin S16x512x4096.rank)
  reducesTo_S16x512x4096_S_d0_1_2 : S16x512x4096.ReducesTo [0, 1, 2] S_
  h_S_ : 0 < S_.numel

variable [Facts]

def fn_part1 {F : FTy → Type} [FloatOps F] (main_v13 : IVec S_ 1) (main_v16 : IVec S16x512x4096 1) : IVec S_ 1 :=
  let main_c_5 : IVec S_ 1 := constantI S_ 1 1#1
  let main_v17 : IVec S_ 1 := (fun x v => Host.reduce IntOp.andi x v reducesTo_S16x512x4096_S_d0_1_2 h_S_) main_v16 main_c_5
  let main_v18 : IVec S_ 1 := andi main_v13 main_v17
  main_v18

def fn {F : FTy → Type} [FloatOps F] (main_arg0 : FVec F S16x512x4096 .f32) (main_arg1 : FVec F S16x512x4096 .f32) (main_arg2 : FVec F S16x512x4096 .f32) (main_arg3 : FVec F S16x512x4096 .f32) : IVec S_ 1 :=
  let main_v0 : FVec F S16x512x4096 .f32 := Host.absf main_arg0
  let main_cst : FVec F S_ .f32 := constant S_ .f32 0x7F800000#32
  let main_v1 : FVec F S16x512x4096 .f32 := broadcastInDim S16x512x4096 ![] bcast_S_S16x512x4096 main_cst
  let main_v2 : IVec S16x512x4096 1 := cmpf .olt main_v0 main_v1
  let main_c : IVec S_ 1 := constantI S_ 1 1#1
  let main_v3 : IVec S_ 1 := (fun x v => Host.reduce IntOp.andi x v reducesTo_S16x512x4096_S_d0_1_2 h_S_) main_v2 main_c
  let main_v4 : FVec F S16x512x4096 .f32 := Host.absf main_arg1
  let main_cst_0 : FVec F S_ .f32 := constant S_ .f32 0x7F800000#32
  let main_v5 : FVec F S16x512x4096 .f32 := broadcastInDim S16x512x4096 ![] bcast_S_S16x512x4096 main_cst_0
  let main_v6 : IVec S16x512x4096 1 := cmpf .olt main_v4 main_v5
  let main_c_1 : IVec S_ 1 := constantI S_ 1 1#1
  let main_v7 : IVec S_ 1 := (fun x v => Host.reduce IntOp.andi x v reducesTo_S16x512x4096_S_d0_1_2 h_S_) main_v6 main_c_1
  let main_v8 : IVec S_ 1 := andi main_v3 main_v7
  let main_v9 : FVec F S16x512x4096 .f32 := Host.absf main_arg2
  let main_cst_2 : FVec F S_ .f32 := constant S_ .f32 0x7F800000#32
  let main_v10 : FVec F S16x512x4096 .f32 := broadcastInDim S16x512x4096 ![] bcast_S_S16x512x4096 main_cst_2
  let main_v11 : IVec S16x512x4096 1 := cmpf .olt main_v9 main_v10
  let main_c_3 : IVec S_ 1 := constantI S_ 1 1#1
  let main_v12 : IVec S_ 1 := (fun x v => Host.reduce IntOp.andi x v reducesTo_S16x512x4096_S_d0_1_2 h_S_) main_v11 main_c_3
  let main_v13 : IVec S_ 1 := andi main_v8 main_v12
  let main_v14 : FVec F S16x512x4096 .f32 := Host.absf main_arg3
  let main_cst_4 : FVec F S_ .f32 := constant S_ .f32 0x7F800000#32
  let main_v15 : FVec F S16x512x4096 .f32 := broadcastInDim S16x512x4096 ![] bcast_S_S16x512x4096 main_cst_4
  let main_v16 : IVec S16x512x4096 1 := cmpf .olt main_v14 main_v15
  fn_part1 (F := F) main_v13 main_v16
-- ==== Kernel.lean ====
abbrev S16x512x4096 : Shape := ⟨3, ![16, 512, 4096]⟩
abbrev S16x1x128 : Shape := ⟨3, ![16, 1, 128]⟩
abbrev S1x512x2048 : Shape := ⟨3, ![1, 512, 2048]⟩
abbrev S1x1x128 : Shape := ⟨3, ![1, 1, 128]⟩
abbrev S512x512 : Shape := ⟨2, ![512, 512]⟩
abbrev S512x2048 : Shape := ⟨2, ![512, 2048]⟩
abbrev S1x512x512 : Shape := ⟨3, ![1, 512, 512]⟩
abbrev S1 : Shape := ⟨1, ![1]⟩
abbrev S1x1x1 : Shape := ⟨3, ![1, 1, 1]⟩
abbrev S1x128 : Shape := ⟨2, ![1, 128]⟩
abbrev S16x1x1 : Shape := ⟨3, ![16, 1, 1]⟩
abbrev S16 : Shape := ⟨1, ![16]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S16x512x4096, .f32⟩
  | .hbm, ⟨1, _⟩ => ⟨S16x512x4096, .f32⟩
  | .hbm, ⟨2, _⟩ => ⟨S16x512x4096, .f32⟩
  | .hbm, ⟨3, _⟩ => ⟨S16x512x4096, .f32⟩
  | .hbm, ⟨4, _⟩ => ⟨S16x1x128, .f32⟩
  | .hbm, ⟨5, _⟩ => ⟨S16x1x1, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x1x128, .f32⟩
  | .local _ .vmem, ⟨9, _⟩ => ⟨S1x1x128, .f32⟩
  | .local _ .vmem, ⟨10, _⟩ => ⟨S512x512, .f32⟩
  | .local _ .vmem, ⟨11, _⟩ => ⟨S512x512, .f32⟩
  | _, _ => ⟨S16x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_21 : BitVec 32 := 0#32
  let v29 : BitVec 1 := Scalar.cmpi .ne v28 c0_i32_21
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x512x4096.size a
  hwx0_0 : ∀ i : grid0.Coords, EltTy.bits .f32 = 32 ∨ (Rect.block (s := S16x512x4096) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S16x512x4096.size a
  hwx0_1 : ∀ i : grid0.Coords, EltTy.bits .f32 = 32 ∨ (Rect.block (s := S16x512x4096) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x512x4096.size a
  hwx0_2 : ∀ i : grid0.Coords, EltTy.bits .f32 = 32 ∨ (Rect.block (s := S16x512x4096) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x512x4096.size a
  hwx0_3 : ∀ i : grid0.Coords, EltTy.bits .f32 = 32 ∨ (Rect.block (s := S16x512x4096) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x512x4096 : Shape := ⟨3, ![16, 512, 4096]⟩
abbrev S16x512x512 : Shape := ⟨3, ![16, 512, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16x512x4096, .f32⟩
  | .hbm, ⟨1, _⟩ => ⟨S16x512x4096, .f32⟩
  | .hbm, ⟨2, _⟩ => ⟨S16x512x4096, .f32⟩
  | .hbm, ⟨3, _⟩ => ⟨S16x512x4096, .f32⟩
  | .hbm, ⟨4, _⟩ => ⟨S16x512x512, .f32⟩
  | .hbm, ⟨5, _⟩ => ⟨S_, .f32⟩
  | .hbm, ⟨6, _⟩ => ⟨S16x512x512, .f32⟩
  | .hbm, ⟨7, _⟩ => ⟨S16x512x512, .f32⟩
  | .hbm, ⟨8, _⟩ => ⟨S16x512x512, .f32⟩
  | .hbm, ⟨9, _⟩ => ⟨S_, .f32⟩
  | .hbm, ⟨10, _⟩ => ⟨S16x512x512, .f32⟩
  | .hbm, ⟨11, _⟩ => ⟨S16x512x512, .f32⟩
  | .hbm, ⟨12, _⟩ => ⟨S16x512x512, .f32⟩
  | .hbm, ⟨13, _⟩ => ⟨S16x512x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S16x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel
  dot_S16x512x4096_S16x512x4096_S16x512x512_2_2_1_1_0_0_wf : DotDims.WF S16x512x4096 S16x512x4096 S16x512x512 [2] [2] [1] [1] [0] [0]

variable [Facts₀]

def dot_S16x512x4096_S16x512x4096_S16x512x512_2_2_1_1_0_0 : DotDims S16x512x4096 S16x512x4096 S16x512x512 where
  lhsContracting := [2]
  rhsContracting := [2]
  lhsNonContracting := [1]
  rhsNonContracting := [1]
  lhsBatch := [0]
  rhsBatch := [0]
  wf := dot_S16x512x4096_S16x512x4096_S16x512x512_2_2_1_1_0_0_wf

class Facts : Prop extends Facts₀ where

variable [Facts]
-- ==== Proof.Pieces.lean ====
/-
  What one visit of the kernel body leaves in the two accumulators and in the output block.

  The body is run in two cases. At the first half of the time axis (case A) it overwrites both accumulators with
  zeros, reads them back, and overwrites each with that zero matrix plus the product of its two input blocks. At the
  second half (case B) it reads the accumulators as the visit before left them, overwrites each with what it read
  plus the product of its two input blocks, reads both back, and overwrites the output block with one number computed
  from the two. Every load and every store goes through the whole buffer, so the last store into a buffer is what the
  buffer holds, and a load after a store reads that store. The statements hold at every choice of float values.
-/
import proofs.«164870_j85555748537092_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- Case A leaves in the first accumulator the zero matrix plus the product of the first two input blocks. -/
theorem accS_first (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x1x128 .f32) (harg6 : arg6.IsWhole) (arg7 : Memref sig .tc .vmem S512x512 .f32) (harg7 : arg7.IsWhole) (arg8 : Memref sig .tc .vmem S512x512 .f32) (harg8 : arg8.IsWhole) (hc0 : cond0_0 i) (hc1 : ¬cond0_1 i) (x0 x1 x2 x3 : Vec F S1x512x2048 .f32) :
    sout0_A_0 c i arg2 harg2 arg3 harg3 arg4 harg4 arg5 harg5 arg6 harg6 arg7 harg7 arg8 harg8 hc0 hc1 x0 x1 x2 x3 = k0_pay4 x0 x1 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x512) zero2, View.readCov_unit_zero (S := S512x512) _ zero2]
  simp only [View.readAt_eq_ld, harg2.read_unread, harg3.read_unread, View.ld_unit_zero (S := S1x512x2048) zero3]

/-- Case A leaves in the second accumulator the zero matrix plus the product of the last two input blocks. -/
theorem accT_first (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x1x128 .f32) (harg6 : arg6.IsWhole) (arg7 : Memref sig .tc .vmem S512x512 .f32) (harg7 : arg7.IsWhole) (arg8 : Memref sig .tc .vmem S512x512 .f32) (harg8 : arg8.IsWhole) (hc0 : cond0_0 i) (hc1 : ¬cond0_1 i) (x0 x1 x2 x3 : Vec F S1x512x2048 .f32) :
    sout0_A_1 c i arg2 harg2 arg3 harg3 arg4 harg4 arg5 harg5 arg6 harg6 arg7 harg7 arg8 harg8 hc0 hc1 x0 x1 x2 x3 = k0_pay5 x2 x3 (k0_pay3 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x512) zero2, View.readCov_unit_zero (S := S512x512) _ zero2]
  simp only [View.readAt_eq_ld, harg4.read_unread, harg5.read_unread, View.ld_unit_zero (S := S1x512x2048) zero3]

/-- Case B leaves in the first accumulator what it held plus the product of the first two input blocks. -/
theorem accS_next (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x1x128 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i) (x0 x1 x2 x3 : Vec F S1x512x2048 .f32) (xs0 xs1 : Vec F S512x512 .f32) :
    sout0_B_0 c i arg2 harg2 arg3 harg3 arg4 harg4 arg5 harg5 arg6 harg6 arg7 harg7 arg8 harg8 hc0 hc1 x0 x1 x2 x3 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S512x512) zero2]
  simp only [View.readAt_eq_ld, harg2.read_unread, harg3.read_unread, harg7.read_unread,
    View.ld_unit_zero (S := S1x512x2048) zero3, View.ld_unit_zero (S := S512x512) zero2]

/-- Case B leaves in the second accumulator what it held plus the product of the last two input blocks. -/
theorem accT_next (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x1x128 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i) (x0 x1 x2 x3 : Vec F S1x512x2048 .f32) (xs0 xs1 : Vec F S512x512 .f32) :
    sout0_B_1 c i arg2 harg2 arg3 harg3 arg4 harg4 arg5 harg5 arg6 harg6 arg7 harg7 arg8 harg8 hc0 hc1 x0 x1 x2 x3 xs0 xs1 = k0_pay5 x2 x3 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S512x512) zero2]
  simp only [View.readAt_eq_ld, harg4.read_unread, harg5.read_unread, harg8.read_unread,
    View.ld_unit_zero (S := S1x512x2048) zero3, View.ld_unit_zero (S := S512x512) zero2]

/-- Case B leaves in the output block the number computed from the two accumulators as it has just updated them. -/
theorem out_next (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x1x128 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i) (x0 x1 x2 x3 : Vec F S1x512x2048 .f32) (xs0 xs1 : Vec F S512x512 .f32) :
    out0_B_4 c i arg2 harg2 arg3 harg3 arg4 harg4 arg5 harg5 arg6 harg6 arg7 harg7 arg8 harg8 hc0 hc1 x0 x1 x2 x3 xs0 xs1 = k0_pay1 (k0_pay4 x0 x1 xs0) (k0_pay5 x2 x3 xs1) := by
  unfold out0_B_4
  rw [View.read_writes_eq_canon _ _ _ (cover0_B_4 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S1x1x128) zero3, View.readCov_unit_zero (S := S512x512) _ zero2,
    View.readCov_unit_zero (S := S512x512) _ zero2]
  simp only [View.readAt_eq_ld, harg2.read_unread, harg3.read_unread, harg4.read_unread, harg5.read_unread,
    harg7.read_unread, harg8.read_unread, View.ld_unit_zero (S := S1x512x2048) zero3,
    View.ld_unit_zero (S := S512x512) zero2]

end Cert.KernelIdeal.Pieces

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.LibUnitLeadSum.lean ====
/-
  A sum over every index of an array with a leading unit axis, taken entry by entry.

  An array of shape `[1, a, b]` has exactly the indices `(0, r, c)` with `r < a` and `c < b`: the first coordinate can
  only be `0`.  So a sum over all its indices, in any commutative monoid, is the double sum over `r` and `c` of the
  entries at `(0, r, c)`.
-/
import Idealize.ShloMosaic.Lib.ValueIdx

namespace Cert.UnitLeadSum

open Idealize.ShloMosaic Idealize.ShloMosaic.ValueIdx

/-- The indices of `[1, a, b]` are the pairs `(r, c)`. -/
def idxEquiv1ab {a b : ℕ} : (⟨3, ![1, a, b]⟩ : Shape).Idx ≃ Fin a × Fin b where
  toFun i := (i 1, i 2)
  invFun p := ix3 (0 : Fin 1) p.1 p.2
  left_inv i := by
    funext d
    match d with
    | ⟨0, _⟩ => exact Fin.ext (by have h : (i 0).val < 1 := (i 0).isLt; show 0 = (i 0).val; omega)
    | ⟨1, _⟩ => rfl
    | ⟨2, _⟩ => rfl
  right_inv _ := rfl

/-- A sum over the indices of `[1, a, b]` is the double sum over the last two coordinates. -/
theorem sum_idx1ab {M : Type*} [AddCommMonoid M] {a b : ℕ} (f : (⟨3, ![1, a, b]⟩ : Shape).Idx → M) :
    ∑ i, f i = ∑ r : Fin a, ∑ c : Fin b, f (ix3 (0 : Fin 1) r c) := by
  rw [← Equiv.sum_comp (idxEquiv1ab (a := a) (b := b)).symm f, Fintype.sum_prod_type]
  rfl

end Cert.UnitLeadSum
-- ==== Proof.Payloads.lean ====
/-
  The body's arithmetic read entry by entry, over the extended reals.

  Four pure terms make up the body. Two are the zero matrix. Two are an accumulator step: to a 512 × 512 matrix `acc`
  is added the product of one 512 × 2048 block with the transpose of another, so entry `(i, j)` becomes
  `acc (i, j) + Σ_q B (i, q) · A (j, q)` (narrowing an operand to half precision changes nothing here, and the
  product is accumulated into a zero matrix, which contributes nothing). The last is the finalisation: from two
  accumulators `S` and `T` it forms `S · c - T · c` entrywise with `c` the word of 1/4096, squares it, adds up all
  512 · 512 squares, and copies that one number along the 128 lanes of the output block.
-/
import proofs.«164870_j85555748537092_2_alg».proof.Proof.Gen.KernelIdeal.Frame
import proofs.«164870_j85555748537092_2_alg».proof.Proof.LibRowsTimesRows
import proofs.«164870_j85555748537092_2_alg».proof.Proof.LibUnitLeadSum
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Payloads

open Cert.KernelIdeal Cert.KernelIdeal.Gen
open Idealize.ShloMosaic Idealize.ShloMosaic.ValueIdx

/-- Both zero matrices are zero at every entry. -/
theorem zeroS_apply (y : S512x512.Idx) : k0_pay2 (F := Ideal) y = 0 := by
  unfold k0_pay2
  refine (congrFun (shapeCast_self _ _) y).trans ?_
  exact Ideal.ofBits_zero_f32

theorem zeroT_apply (y : S512x512.Idx) : k0_pay3 (F := Ideal) y = 0 := by
  unfold k0_pay3
  refine (congrFun (shapeCast_self _ _) y).trans ?_
  exact Ideal.ofBits_zero_f32

/-- The product of a 512 × 2048 block with the transpose of another, accumulated into the zero matrix, at `(i, j)`:
    each block is given with a leading unit axis, which is dropped before the product. -/
theorem blockProduct_apply (A B : Vec Ideal S1x512x2048 .f32) (i j : Fin 512) :
    matmul dot_S512x2048_S512x2048_S512x512_1_1_0_0_n_n none
        (truncf .bf16 (shapeCast S512x2048 B Facts₀.shapeCasts_S1x512x2048_S512x2048) Facts₀.bitsLt_bf16_f32)
        (truncf .bf16 (shapeCast S512x2048 A Facts₀.shapeCasts_S1x512x2048_S512x2048) Facts₀.bitsLt_bf16_f32)
        (constant (F := Ideal) S512x512 .f32 0x00000000#32) (ix2 i j)
      = ∑ q : Fin 2048, B (ix3 (0 : Fin 1) i q) * A (ix3 (0 : Fin 1) j q) := by
  refine (Cert.RowsTimesRows.rowsMatmul_zero_apply (R := 512) (n := 2048) (k := 512)
    Facts₀.dot_S512x2048_S512x2048_S512x512_1_1_0_0_n_n_wf none _ _ i j).trans ?_
  refine Finset.sum_congr rfl fun q _ => ?_
  exact congrArg₂ (· * ·) (shapeCast_1ab_ab_apply B _ i q) (shapeCast_1ab_ab_apply A _ j q)

/-- The first accumulator's step at `(i, j)`. -/
theorem stepS_apply (A B : Vec Ideal S1x512x2048 .f32) (acc : Vec Ideal S512x512 .f32) (i j : Fin 512) :
    k0_pay4 (F := Ideal) A B acc (ix2 i j)
      = acc (ix2 i j) + ∑ q : Fin 2048, B (ix3 (0 : Fin 1) i q) * A (ix3 (0 : Fin 1) j q) := by
  unfold k0_pay4
  refine (congrFun (shapeCast_self _ _) (ix2 i j)).trans ?_
  exact congrArg (acc (ix2 i j) + ·) (blockProduct_apply A B i j)

/-- The second accumulator's step at `(i, j)`. -/
theorem stepT_apply (A B : Vec Ideal S1x512x2048 .f32) (acc : Vec Ideal S512x512 .f32) (i j : Fin 512) :
    k0_pay5 (F := Ideal) A B acc (ix2 i j)
      = acc (ix2 i j) + ∑ q : Fin 2048, B (ix3 (0 : Fin 1) i q) * A (ix3 (0 : Fin 1) j q) := by
  unfold k0_pay5
  refine (congrFun (shapeCast_self _ _) (ix2 i j)).trans ?_
  exact congrArg (acc (ix2 i j) + ·) (blockProduct_apply A B i j)

/-- A number copied along the lanes of a [1, 128] row and laid out as a [1, 1, 128] block reads, at every lane, that
    number; and the number taken out of a one-entry array laid out as [1, 1, 1] is an entry of that array. -/
theorem lane_reads_entry (R : FVec Ideal S1 .f32) (h1 : S1.ShapeCasts S1x1x1)
    (h2 : ∀ a, (![0, 0, 0] : Fin 3 → Nat) a < S1x1x1.size a) (h3 : S1x128.ShapeCasts S1x1x128) (y : S1x1x128.Idx) :
    ∃ j : S1.Idx, shapeCast S1x1x128 (broadcast S1x128 (extractAt ![0, 0, 0] (shapeCast S1x1x1 R h1) h2)) h3 y = R j :=
  ⟨_, rfl⟩

/-- The sum of all entries of a 512 × 512 matrix laid out as [1, 512, 512], at the one index of the result. -/
theorem total_apply (W : FVec Ideal S512x512 .f32) (j : S1.Idx) :
    multiReduction FKind.add [1, 2] S1 (shapeCast S1x512x512 W Facts₀.shapeCasts_S512x512_S1x512x512) 0x00000000#32
        Facts₀.reduces_S1x512x512_S1 (.inl rfl) rfl j
      = ∑ i : Fin 512, ∑ k : Fin 512, W (ix2 i k) :=
  (Ideal.multiReduction_add_total _ 0x00000000#32 Facts₀.reduces_S1x512x512_S1 (fun b => by fin_cases b; rfl)
      (.inl rfl) rfl j).trans
    ((Cert.UnitLeadSum.sum_idx1ab _).trans
      (Finset.sum_congr rfl fun i _ => Finset.sum_congr rfl fun k _ => shapeCast_ab_1ab_apply W _ (0 : Fin 1) i k))

/-- The total of a matrix, copied along the lanes of the output block, at any lane. -/
theorem total_lane (W : FVec Ideal S512x512 .f32) (y : S1x1x128.Idx) :
    shapeCast S1x1x128 (broadcast S1x128 (extractAt ![0, 0, 0]
        (shapeCast S1x1x1
          (multiReduction FKind.add [1, 2] S1 (shapeCast S1x512x512 W Facts₀.shapeCasts_S512x512_S1x512x512)
            0x00000000#32 Facts₀.reduces_S1x512x512_S1 (.inl rfl) rfl)
          Facts₀.shapeCasts_S1_S1x1x1) Facts₀.inpos_S1x1x1_p0_0_0)) Facts₀.shapeCasts_S1x128_S1x1x128 y
      = ∑ i : Fin 512, ∑ k : Fin 512, W (ix2 i k) := by
  obtain ⟨j, ej⟩ := lane_reads_entry
    (multiReduction FKind.add [1, 2] S1 (shapeCast S1x512x512 W Facts₀.shapeCasts_S512x512_S1x512x512)
      0x00000000#32 Facts₀.reduces_S1x512x512_S1 (.inl rfl) rfl)
    Facts₀.shapeCasts_S1_S1x1x1 Facts₀.inpos_S1x1x1_p0_0_0 Facts₀.shapeCasts_S1x128_S1x1x128 y
  exact ej.trans (total_apply W j)

/-- The finalisation at any lane: the sum over all pairs `(i, j)` of the square of `S (i, j) · c - T (i, j) · c`. -/
theorem finish_apply (S T : Vec Ideal S512x512 .f32) (y : S1x1x128.Idx) :
    k0_pay1 (F := Ideal) S T y
      = ∑ i : Fin 512, ∑ j : Fin 512,
          (S (ix2 i j) * Ideal.ofBits .f32 0x39800000#32 - T (ix2 i j) * Ideal.ofBits .f32 0x39800000#32)
            * (S (ix2 i j) * Ideal.ofBits .f32 0x39800000#32 - T (ix2 i j) * Ideal.ofBits .f32 0x39800000#32) := by
  unfold k0_pay1
  dsimp only
  exact total_lane _ y

end Cert.KernelIdeal.Payloads

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.Spec.lean ====
/-
  The mathematics of the loss, with no program in sight.

  Four arrays of shape [16, 512, 4096] are given. For one batch member `b` the Gram entry of two of them at `(i, j)`
  is the sum over the 4096 time steps `t` of `P (b, i, t) · Q (b, j, t)`. The loss is the sum, over every batch member
  and every pair `(i, j)`, of the squared difference of two such entries, each divided by 4096, the whole divided by
  the number 16 · 512 · 512 of terms.

  Two facts about these numbers join the two ways of computing the loss. A sum over the 4096 time steps is the sum
  over the first 2048 of them plus the sum over the last 2048: a Gram entry may be accumulated one half of the time
  axis after the other, starting from zero. And multiplying an extended real by the number 1/4096 is dividing it by
  4096, at the infinities too. Neither fact needs an entry to be finite: only that addition is associative and
  commutative, and the convention for a quotient by a nonzero real.
-/
import Idealize.ShloMosaic.PureOps.Ideal
import Idealize.ShloMosaic.PureOps.Ideal.Laws
import Idealize.ShloMosaic.Lib.ValueIdx
import proofs.«164870_j85555748537092_2_alg».proof.Proof.LibBlockedSum

noncomputable section

namespace Cert.GramLoss

open Idealize.ShloMosaic Idealize.ShloMosaic.ValueIdx

/-! ## The two constants -/

/-- The single-precision word of `4096.0` denotes the real 4096. -/
theorem word_4096 : Ideal.ofBits .f32 0x45800000#32 = ((4096 : ℝ) : EReal) := by
  simp [Ideal.ofBits, Ideal.ieee, -EReal.coe_mul]; norm_num

/-- The single-precision word of `2.44140625e-4` denotes the real 1/4096: a power of two, so exactly. -/
theorem word_inv_4096 : Ideal.ofBits .f32 0x39800000#32 = ((1 / 4096 : ℝ) : EReal) := by
  simp [Ideal.ofBits, Ideal.ieee, -EReal.coe_mul]; norm_num

/-- Multiplying by 1/4096 is dividing by 4096, on every extended real. -/
theorem mul_inv_eq_div (x : EReal) :
    x * Ideal.ofBits .f32 0x39800000#32 = Ideal.div x (Ideal.ofBits .f32 0x45800000#32) := by
  rw [word_4096, word_inv_4096, Ideal.div_coe (by norm_num : (4096 : ℝ) ≠ 0)]

/-! ## The time axis in two halves -/

/-- Time step `q` of half `k` of the time axis: `2048 · k + q`. -/
def halfPos (k : Fin 2) (q : Fin 2048) : Fin 4096 :=
  ⟨2048 * k.val + q.val, by have := k.isLt; have := q.isLt; omega⟩

/-- A sum over the 4096 time steps is the sum over the first half plus the sum over the second half. -/
theorem sum_halves {M : Type*} [AddCommMonoid M] (g : Fin 4096 → M) :
    (∑ q : Fin 2048, g (halfPos 0 q)) + ∑ q : Fin 2048, g (halfPos 1 q) = ∑ t : Fin 4096, g t := by
  have hn : 0 < 4096 := by norm_num
  have e : ∀ (k : Fin 2) (q : Fin 2048), BlockedSum.blkIdx hn 2048 k.val q = halfPos k q := fun k q =>
    Fin.ext (BlockedSum.blkIdx_val hn (nb := 2) (by norm_num) k.isLt q)
  calc (∑ q : Fin 2048, g (halfPos 0 q)) + ∑ q : Fin 2048, g (halfPos 1 q)
      = BlockedSum.blockSum hn 2048 g 0 + BlockedSum.blockSum hn 2048 g (0 + 1) := by
        unfold BlockedSum.blockSum
        exact congrArg₂ (· + ·) (Finset.sum_congr rfl fun q _ => congrArg g (e 0 q).symm)
          (Finset.sum_congr rfl fun q _ => congrArg g (e 1 q).symm)
    _ = BlockedSum.partialSum hn 2048 g (0 + 1) := by
        rw [BlockedSum.partialSum_succ, BlockedSum.partialSum_zero]
    _ = ∑ t : Fin 4096, g t := BlockedSum.partialSum_last hn (nb := 2) (by norm_num) g rfl

/-! ## Gram entries and the loss -/

/-- An array of shape [16, 512, 4096] of extended reals. -/
abbrev Acts : Type := (⟨3, ![16, 512, 4096]⟩ : Shape).Idx → EReal

/-- The Gram entry `(i, j)` of batch member `b`: the sum over the time steps of `P (b, i, t) · Q (b, j, t)`. -/
def gram (P Q : Acts) (b : Fin 16) (i j : Fin 512) : EReal :=
  ∑ t : Fin 4096, P (ix3 b i t) * Q (ix3 b j t)

/-- The share of half `k` of the time axis in that entry. -/
def gramHalf (P Q : Acts) (b : Fin 16) (k : Fin 2) (i j : Fin 512) : EReal :=
  ∑ q : Fin 2048, P (ix3 b i (halfPos k q)) * Q (ix3 b j (halfPos k q))

/-- Accumulated from zero, first half then second half, the shares make the entry. -/
theorem gram_halves (P Q : Acts) (b : Fin 16) (i j : Fin 512) :
    (0 + gramHalf P Q b 0 i j) + gramHalf P Q b 1 i j = gram P Q b i j := by
  rw [zero_add]
  exact sum_halves fun t => P (ix3 b i t) * Q (ix3 b j t)

/-- The squared difference of the two Gram entries at `(b, i, j)`, each divided by 4096. -/
def sqDiff (x0 x1 x2 x3 : Acts) (b : Fin 16) (i j : Fin 512) : EReal :=
  (Ideal.div (gram x1 x0 b i j) (Ideal.ofBits .f32 0x45800000#32)
      - Ideal.div (gram x3 x2 b i j) (Ideal.ofBits .f32 0x45800000#32))
    * (Ideal.div (gram x1 x0 b i j) (Ideal.ofBits .f32 0x45800000#32)
      - Ideal.div (gram x3 x2 b i j) (Ideal.ofBits .f32 0x45800000#32))

/-- The same number computed from accumulated halves and with the division spelt as a product by 1/4096. -/
theorem sqDiff_of_halves (x0 x1 x2 x3 : Acts) (b : Fin 16) (i j : Fin 512) :
    (((0 + gramHalf x1 x0 b 0 i j) + gramHalf x1 x0 b 1 i j) * Ideal.ofBits .f32 0x39800000#32
        - ((0 + gramHalf x3 x2 b 0 i j) + gramHalf x3 x2 b 1 i j) * Ideal.ofBits .f32 0x39800000#32)
      * (((0 + gramHalf x1 x0 b 0 i j) + gramHalf x1 x0 b 1 i j) * Ideal.ofBits .f32 0x39800000#32
        - ((0 + gramHalf x3 x2 b 0 i j) + gramHalf x3 x2 b 1 i j) * Ideal.ofBits .f32 0x39800000#32)
      = sqDiff x0 x1 x2 x3 b i j := by
  rw [gram_halves, gram_halves, mul_inv_eq_div, mul_inv_eq_div]
  rfl

/-- One batch member's share of the loss before the final division: the sum over the pairs `(i, j)`. -/
def batchTotal (x0 x1 x2 x3 : Acts) (b : Fin 16) : EReal :=
  ∑ i : Fin 512, ∑ j : Fin 512, sqDiff x0 x1 x2 x3 b i j

/-- The loss: every batch member's total, added from the zero word, divided by the word of 16 · 512 · 512. -/
def loss (x0 x1 x2 x3 : Acts) : EReal :=
  Ideal.div (Ideal.ofBits .f32 0x00000000#32 + ∑ b : Fin 16, batchTotal x0 x1 x2 x3 b)
    (Ideal.ofBits .f32 0x4A800000#32)

end Cert.GramLoss

end
-- ==== Proof.BatchValue.lean ====
/-
  One batch member's output lane, from its eight input blocks.

  For batch member `b` the body is visited twice, once per half of the time axis, each time with one block of each of
  the four arrays: block `(b, ·, half)`, whose entry `(0, i, q)` is the array's entry `(b, i, 2048 · half + q)`. After
  the second visit every lane of the output block holds the sum over all pairs `(i, j)` of the squared difference of
  the two scaled Gram entries: the accumulators hold the Gram entries built one half after the other from zero, and
  the scaling by 1/4096 is the division by 4096.
-/
import proofs.«164870_j85555748537092_2_alg».proof.Proof.Gen.KernelIdeal.Frame
import proofs.«164870_j85555748537092_2_alg».proof.Proof.Payloads
import proofs.«164870_j85555748537092_2_alg».proof.Proof.Spec

set_option maxRecDepth 16384

noncomputable section

namespace Cert.KernelIdeal.BatchValue

open Cert.KernelIdeal Cert.KernelIdeal.Gen Cert.GramLoss
open Idealize.ShloMosaic Idealize.ShloMosaic.ValueIdx

/-- The first accumulator after both visits, at `(i, j)`: the Gram entry of the second and first arrays, built from
    zero one half after the other. -/
theorem accS_apply (X0 X1 : Acts) (b : Fin 16) (a0 a1 c0 c1 : Vec Ideal S1x512x2048 .f32)
    (ha0 : ∀ (i : Fin 512) (q : Fin 2048), a0 (ix3 (0 : Fin 1) i q) = X0 (ix3 b i (halfPos 0 q))) (ha1 : ∀ (i : Fin 512) (q : Fin 2048), a1 (ix3 (0 : Fin 1) i q) = X1 (ix3 b i (halfPos 0 q)))
    (hc0 : ∀ (i : Fin 512) (q : Fin 2048), c0 (ix3 (0 : Fin 1) i q) = X0 (ix3 b i (halfPos 1 q))) (hc1 : ∀ (i : Fin 512) (q : Fin 2048), c1 (ix3 (0 : Fin 1) i q) = X1 (ix3 b i (halfPos 1 q))) (i j : Fin 512) :
    k0_pay4 (F := Ideal) c0 c1 (k0_pay4 a0 a1 (k0_pay2 (F := Ideal))) (ix2 i j)
      = (0 + gramHalf X1 X0 b 0 i j) + gramHalf X1 X0 b 1 i j := by
  rw [Payloads.stepS_apply, Payloads.stepS_apply, Payloads.zeroS_apply]
  unfold gramHalf
  simp only [ha0, ha1, hc0, hc1]

/-- The second accumulator after both visits, at `(i, j)`: the Gram entry of the fourth and third arrays. -/
theorem accT_apply (X2 X3 : Acts) (b : Fin 16) (a2 a3 c2 c3 : Vec Ideal S1x512x2048 .f32)
    (ha2 : ∀ (i : Fin 512) (q : Fin 2048), a2 (ix3 (0 : Fin 1) i q) = X2 (ix3 b i (halfPos 0 q))) (ha3 : ∀ (i : Fin 512) (q : Fin 2048), a3 (ix3 (0 : Fin 1) i q) = X3 (ix3 b i (halfPos 0 q)))
    (hc2 : ∀ (i : Fin 512) (q : Fin 2048), c2 (ix3 (0 : Fin 1) i q) = X2 (ix3 b i (halfPos 1 q))) (hc3 : ∀ (i : Fin 512) (q : Fin 2048), c3 (ix3 (0 : Fin 1) i q) = X3 (ix3 b i (halfPos 1 q))) (i j : Fin 512) :
    k0_pay5 (F := Ideal) c2 c3 (k0_pay5 a2 a3 (k0_pay3 (F := Ideal))) (ix2 i j)
      = (0 + gramHalf X3 X2 b 0 i j) + gramHalf X3 X2 b 1 i j := by
  rw [Payloads.stepT_apply, Payloads.stepT_apply, Payloads.zeroT_apply]
  unfold gramHalf
  simp only [ha2, ha3, hc2, hc3]

/-- Every lane of the output block after the second visit: the batch member's total. -/
theorem lane_value (X0 X1 X2 X3 : Acts) (b : Fin 16) (a0 a1 a2 a3 c0 c1 c2 c3 : Vec Ideal S1x512x2048 .f32)
    (ha0 : ∀ (i : Fin 512) (q : Fin 2048), a0 (ix3 (0 : Fin 1) i q) = X0 (ix3 b i (halfPos 0 q))) (ha1 : ∀ (i : Fin 512) (q : Fin 2048), a1 (ix3 (0 : Fin 1) i q) = X1 (ix3 b i (halfPos 0 q)))
    (ha2 : ∀ (i : Fin 512) (q : Fin 2048), a2 (ix3 (0 : Fin 1) i q) = X2 (ix3 b i (halfPos 0 q))) (ha3 : ∀ (i : Fin 512) (q : Fin 2048), a3 (ix3 (0 : Fin 1) i q) = X3 (ix3 b i (halfPos 0 q)))
    (hc0 : ∀ (i : Fin 512) (q : Fin 2048), c0 (ix3 (0 : Fin 1) i q) = X0 (ix3 b i (halfPos 1 q))) (hc1 : ∀ (i : Fin 512) (q : Fin 2048), c1 (ix3 (0 : Fin 1) i q) = X1 (ix3 b i (halfPos 1 q)))
    (hc2 : ∀ (i : Fin 512) (q : Fin 2048), c2 (ix3 (0 : Fin 1) i q) = X2 (ix3 b i (halfPos 1 q))) (hc3 : ∀ (i : Fin 512) (q : Fin 2048), c3 (ix3 (0 : Fin 1) i q) = X3 (ix3 b i (halfPos 1 q))) (y : S1x1x128.Idx) :
    k0_pay1 (F := Ideal) (k0_pay4 c0 c1 (k0_pay4 a0 a1 (k0_pay2 (F := Ideal)))) (k0_pay5 c2 c3 (k0_pay5 a2 a3 (k0_pay3 (F := Ideal)))) y
      = batchTotal X0 X1 X2 X3 b := by
  refine (Payloads.finish_apply _ _ y).trans ?_
  unfold batchTotal
  refine Finset.sum_congr rfl fun i _ => Finset.sum_congr rfl fun j _ => ?_
  rw [accS_apply X0 X1 b a0 a1 c0 c1 ha0 ha1 hc0 hc1 i j, accT_apply X2 X3 b a2 a3 c2 c3 ha2 ha3 hc2 hc3 i j]
  exact sqDiff_of_halves X0 X1 X2 X3 b i j

end Cert.KernelIdeal.BatchValue

end
-- ==== Proof.LibSumForms.lean ====
/-
  Sums over a vector's or a column's indices as sums over the coordinate.

  An index of a vector `[n]` is its one coordinate, and an index of a column `[n, 1]` is its first coordinate (the
  second can only be `0`). So a sum over all indices of either is a sum over `Fin n`, with the index written by its
  coordinates.
-/
import Idealize.ShloMosaic.Lib.ValueIdx

namespace Cert.SumForms

open Idealize.ShloMosaic Idealize.ShloMosaic.ValueIdx

/-- The indices of a vector `[n]` are its coordinates. -/
def idxEquiv1 {n : ℕ} : (⟨1, ![n]⟩ : Shape).Idx ≃ Fin n where
  toFun j := j 0
  invFun a := ix1 a
  left_inv j := (eq_ix1 j).symm
  right_inv _ := rfl

/-- A sum over the indices of a vector `[n]` is the sum over its coordinate. -/
theorem sum_idx1 {M : Type*} [AddCommMonoid M] {n : ℕ} (f : (⟨1, ![n]⟩ : Shape).Idx → M) :
    ∑ j, f j = ∑ a : Fin n, f (ix1 a) :=
  (Equiv.sum_comp (idxEquiv1 (n := n)).symm f).symm

/-- A sum over the indices of a column `[n, 1]` is the sum over its first coordinate, the second being `0`. -/
theorem sum_column {M : Type*} [AddCommMonoid M] {n : ℕ} (f : (⟨2, ![n, 1]⟩ : Shape).Idx → M) :
    ∑ j, f j = ∑ a : Fin n, f (ix2 a (0 : Fin 1)) := by
  rw [sum_idx2]
  exact Finset.sum_congr rfl fun a _ => Fin.sum_univ_one _

end Cert.SumForms
-- ==== Proof.KernelValue.lean ====
/-
  What the kernel's program computes, read off its run: the loss.

  The call visits the 32 grid points in order; point `t = 2 · b + k` is batch member `b` at half `k` of the time axis,
  and each input window's block there is `(b, ·, k)` of its array. The output window's block is row `b` of the
  [16, 1, 128] result, left alone at the even points and written back after the odd ones, where every lane holds the
  batch member's total. So the result array holds, in row `b`, that total; the host operations after the call take
  lane 0 of each row, add the sixteen numbers from zero and divide by the number of terms.
-/
import proofs.«164870_j85555748537092_2_alg».proof.Proof.Gen.KernelIdeal.Frame
import proofs.«164870_j85555748537092_2_alg».proof.Proof.Pieces
import proofs.«164870_j85555748537092_2_alg».proof.Proof.BatchValue
import proofs.«164870_j85555748537092_2_alg».proof.Proof.Spec
import proofs.«164870_j85555748537092_2_alg».proof.Proof.LibSumForms
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.GramLoss Idealize.ShloMosaic.ValueIdx

variable (m : (ℓ : Loc nD τ sig) → Buf (Elt Ideal) ℓ) (ρ : Dev nD → PrngReg)

/-! ## Where each window's block sits -/

/-- The printed index maps, decided over the grid: at point `t` every input window is at block `(t / 2, 0, t % 2)`
    and the output window at block `(t / 2, 0, 0)`. -/
theorem index_facts : ∀ t : Fin cfg0.N,
    (win0_0.index t (0 : Fin 3) = t.val / 2 ∧ win0_0.index t (1 : Fin 3) = 0 ∧ win0_0.index t (2 : Fin 3) = t.val % 2)
    ∧ (win0_1.index t (0 : Fin 3) = t.val / 2 ∧ win0_1.index t (1 : Fin 3) = 0 ∧ win0_1.index t (2 : Fin 3) = t.val % 2)
    ∧ (win0_2.index t (0 : Fin 3) = t.val / 2 ∧ win0_2.index t (1 : Fin 3) = 0 ∧ win0_2.index t (2 : Fin 3) = t.val % 2)
    ∧ (win0_3.index t (0 : Fin 3) = t.val / 2 ∧ win0_3.index t (1 : Fin 3) = 0 ∧ win0_3.index t (2 : Fin 3) = t.val % 2)
    ∧ win0_4.index t (0 : Fin 3) = t.val / 2 ∧ win0_4.index t (1 : Fin 3) = 0 ∧ win0_4.index t (2 : Fin 3) = 0 :=
  (by decide +kernel : ∀ t : Fin grid0.N, _)

/-- Block `t` of array 0: entry `(0, i, q)` is the array's entry `(b, i, 2048 · k + q)` when `t = 2 · b + k`. -/
theorem block0_apply (c : Dev nD) (t : Fin cfg0.N) (b : Fin 16) (k : Fin 2) (ht : t.val = 2 * b.val + k.val)
    (i : Fin 512) (q : Fin 2048) :
    (iblk m c 0 t : Vec Ideal S1x512x2048 .f32) (ix3 (0 : Fin 1) i q)
      = (V m c main_arg0 : Acts) (ix3 b i (halfPos k q)) := by
  obtain ⟨⟨e0, e1, e2⟩, -⟩ := index_facts t
  unfold iblk
  rw [View.read_apply]
  show V m c main_arg0 _ = V m c main_arg0 _
  congr 1
  funext a
  apply Fin.ext
  have hk := k.isLt
  match a with
  | ⟨0, _⟩ => show win0_0.index t (0 : Fin 3) * 1 + 1 * 0 = b.val; omega
  | ⟨1, _⟩ => show win0_0.index t (1 : Fin 3) * 512 + 1 * i.val = i.val; omega
  | ⟨2, _⟩ => show win0_0.index t (2 : Fin 3) * 2048 + 1 * q.val = 2048 * k.val + q.val; omega

/-- Block `t` of array 1: entry `(0, i, q)` is the array's entry `(b, i, 2048 · k + q)` when `t = 2 · b + k`. -/
theorem block1_apply (c : Dev nD) (t : Fin cfg0.N) (b : Fin 16) (k : Fin 2) (ht : t.val = 2 * b.val + k.val)
    (i : Fin 512) (q : Fin 2048) :
    (iblk m c 1 t : Vec Ideal S1x512x2048 .f32) (ix3 (0 : Fin 1) i q)
      = (V m c main_arg1 : Acts) (ix3 b i (halfPos k q)) := by
  obtain ⟨-, ⟨e0, e1, e2⟩, -⟩ := index_facts t
  unfold iblk
  rw [View.read_apply]
  show V m c main_arg1 _ = V m c main_arg1 _
  congr 1
  funext a
  apply Fin.ext
  have hk := k.isLt
  match a with
  | ⟨0, _⟩ => show win0_1.index t (0 : Fin 3) * 1 + 1 * 0 = b.val; omega
  | ⟨1, _⟩ => show win0_1.index t (1 : Fin 3) * 512 + 1 * i.val = i.val; omega
  | ⟨2, _⟩ => show win0_1.index t (2 : Fin 3) * 2048 + 1 * q.val = 2048 * k.val + q.val; omega

/-- Block `t` of array 2: entry `(0, i, q)` is the array's entry `(b, i, 2048 · k + q)` when `t = 2 · b + k`. -/
theorem block2_apply (c : Dev nD) (t : Fin cfg0.N) (b : Fin 16) (k : Fin 2) (ht : t.val = 2 * b.val + k.val)
    (i : Fin 512) (q : Fin 2048) :
    (iblk m c 2 t : Vec Ideal S1x512x2048 .f32) (ix3 (0 : Fin 1) i q)
      = (V m c main_arg2 : Acts) (ix3 b i (halfPos k q)) := by
  obtain ⟨-, -, ⟨e0, e1, e2⟩, -⟩ := index_facts t
  unfold iblk
  rw [View.read_apply]
  show V m c main_arg2 _ = V m c main_arg2 _
  congr 1
  funext a
  apply Fin.ext
  have hk := k.isLt
  match a with
  | ⟨0, _⟩ => show win0_2.index t (0 : Fin 3) * 1 + 1 * 0 = b.val; omega
  | ⟨1, _⟩ => show win0_2.index t (1 : Fin 3) * 512 + 1 * i.val = i.val; omega
  | ⟨2, _⟩ => show win0_2.index t (2 : Fin 3) * 2048 + 1 * q.val = 2048 * k.val + q.val; omega

/-- Block `t` of array 3: entry `(0, i, q)` is the array's entry `(b, i, 2048 · k + q)` when `t = 2 · b + k`. -/
theorem block3_apply (c : Dev nD) (t : Fin cfg0.N) (b : Fin 16) (k : Fin 2) (ht : t.val = 2 * b.val + k.val)
    (i : Fin 512) (q : Fin 2048) :
    (iblk m c 3 t : Vec Ideal S1x512x2048 .f32) (ix3 (0 : Fin 1) i q)
      = (V m c main_arg3 : Acts) (ix3 b i (halfPos k q)) := by
  obtain ⟨-, -, -, ⟨e0, e1, e2⟩, -⟩ := index_facts t
  unfold iblk
  rw [View.read_apply]
  show V m c main_arg3 _ = V m c main_arg3 _
  congr 1
  funext a
  apply Fin.ext
  have hk := k.isLt
  match a with
  | ⟨0, _⟩ => show win0_3.index t (0 : Fin 3) * 1 + 1 * 0 = b.val; omega
  | ⟨1, _⟩ => show win0_3.index t (1 : Fin 3) * 512 + 1 * i.val = i.val; omega
  | ⟨2, _⟩ => show win0_3.index t (2 : Fin 3) * 2048 + 1 * q.val = 2048 * k.val + q.val; omega

/-! ## The accumulators and the output block, point by point -/

/-- After an even point the first accumulator holds the zero matrix plus the product of that point's first two
    blocks. -/
theorem accS_after_even (c : Dev nD) (t : Fin cfg0.N) (h0 : t.val % 2 = 0) (h1 : ¬t.val % 2 = 1) :
    (outsAt0 m c t.val t.isLt).2.1 = k0_pay4 (iblk m c 0 t) (iblk m c 1 t) (k0_pay2 (F := Ideal)) := by
  rw [outsAt0_A m c t h0 h1]
  dsimp only
  exact Pieces.accS_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    ((hcond0_0 t).mpr h0) (fun h => h1 ((hcond0_1 t).mp h)) (iblk m c 0 t) (iblk m c 1 t) (iblk m c 2 t) (iblk m c 3 t)

/-- After an even point the second accumulator holds the zero matrix plus the product of that point's last two
    blocks. -/
theorem accT_after_even (c : Dev nD) (t : Fin cfg0.N) (h0 : t.val % 2 = 0) (h1 : ¬t.val % 2 = 1) :
    (outsAt0 m c t.val t.isLt).2.2 = k0_pay5 (iblk m c 2 t) (iblk m c 3 t) (k0_pay3 (F := Ideal)) := by
  rw [outsAt0_A m c t h0 h1]
  dsimp only
  exact Pieces.accT_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    ((hcond0_0 t).mpr h0) (fun h => h1 ((hcond0_1 t).mp h)) (iblk m c 0 t) (iblk m c 1 t) (iblk m c 2 t) (iblk m c 3 t)

/-- After an odd point the output block holds the finalisation of the two accumulators, each what the point before
    left plus the product of this point's blocks. -/
theorem out_after_odd (c : Dev nD) (t : Fin cfg0.N) (h0 : ¬t.val % 2 = 0) (h1 : t.val % 2 = 1)
    (hlt : t.val - 1 < cfg0.N) :
    (outsAt0 m c t.val t.isLt).1
      = k0_pay1 (k0_pay4 (iblk m c 0 t) (iblk m c 1 t) (outsAt0 m c (t.val - 1) hlt).2.1)
          (k0_pay5 (iblk m c 2 t) (iblk m c 3 t) (outsAt0 m c (t.val - 1) hlt).2.2) := by
  rw [outsAt0_B m c t h0 h1]
  dsimp only
  exact Pieces.out_next (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    (fun h => h0 ((hcond0_0 t).mp h)) ((hcond0_1 t).mpr h1)
    (iblk m c 0 t) (iblk m c 1 t) (iblk m c 2 t) (iblk m c 3 t) (outsAt0 m c (t.val - 1) hlt).2.1 (outsAt0 m c (t.val - 1) hlt).2.2

/-- After the odd point `t` every lane of the output block holds the total of batch member `t / 2`: the point before
    was that member's first half and left the accumulators at their first shares. -/
theorem lane_after_odd (c : Dev nD) (t : Fin cfg0.N) (h1 : t.val % 2 = 1) (hb : t.val / 2 < 16) (y : S1x1x128.Idx) :
    (outsAt0 m c t.val t.isLt).1 y
      = batchTotal (V m c main_arg0) (V m c main_arg1) (V m c main_arg2) (V m c main_arg3) ⟨t.val / 2, hb⟩ := by
  have h0 : ¬t.val % 2 = 0 := by omega
  have hlt : t.val - 1 < cfg0.N := lt_of_le_of_lt (Nat.sub_le _ _) t.isLt
  have h0' : (⟨t.val - 1, hlt⟩ : Fin cfg0.N).val % 2 = 0 := by show (t.val - 1) % 2 = 0; omega
  have h1' : ¬(⟨t.val - 1, hlt⟩ : Fin cfg0.N).val % 2 = 1 := by show ¬(t.val - 1) % 2 = 1; omega
  have eS : (outsAt0 m c (t.val - 1) hlt).2.1
      = k0_pay4 (iblk m c 0 ⟨t.val - 1, hlt⟩) (iblk m c 1 ⟨t.val - 1, hlt⟩) (k0_pay2 (F := Ideal)) :=
    accS_after_even m c ⟨t.val - 1, hlt⟩ h0' h1'
  have eT : (outsAt0 m c (t.val - 1) hlt).2.2
      = k0_pay5 (iblk m c 2 ⟨t.val - 1, hlt⟩) (iblk m c 3 ⟨t.val - 1, hlt⟩) (k0_pay3 (F := Ideal)) :=
    accT_after_even m c ⟨t.val - 1, hlt⟩ h0' h1'
  rw [out_after_odd m c t h0 h1 hlt, eS, eT]
  have hfirst : (⟨t.val - 1, hlt⟩ : Fin cfg0.N).val = 2 * (⟨t.val / 2, hb⟩ : Fin 16).val + (0 : Fin 2).val := by
    show t.val - 1 = 2 * (t.val / 2) + 0; omega
  have hsecond : t.val = 2 * (⟨t.val / 2, hb⟩ : Fin 16).val + (1 : Fin 2).val := by
    show t.val = 2 * (t.val / 2) + 1; omega
  exact BatchValue.lane_value (V m c main_arg0) (V m c main_arg1) (V m c main_arg2) (V m c main_arg3) ⟨t.val / 2, hb⟩
    (iblk m c 0 ⟨t.val - 1, hlt⟩) (iblk m c 1 ⟨t.val - 1, hlt⟩) (iblk m c 2 ⟨t.val - 1, hlt⟩) (iblk m c 3 ⟨t.val - 1, hlt⟩)
    (iblk m c 0 t) (iblk m c 1 t) (iblk m c 2 t) (iblk m c 3 t)
    (block0_apply m c ⟨t.val - 1, hlt⟩ ⟨t.val / 2, hb⟩ 0 hfirst) (block1_apply m c ⟨t.val - 1, hlt⟩ ⟨t.val / 2, hb⟩ 0 hfirst)
    (block2_apply m c ⟨t.val - 1, hlt⟩ ⟨t.val / 2, hb⟩ 0 hfirst) (block3_apply m c ⟨t.val - 1, hlt⟩ ⟨t.val / 2, hb⟩ 0 hfirst)
    (block0_apply m c t ⟨t.val / 2, hb⟩ 1 hsecond) (block1_apply m c t ⟨t.val / 2, hb⟩ 1 hsecond)
    (block2_apply m c t ⟨t.val / 2, hb⟩ 1 hsecond) (block3_apply m c t ⟨t.val / 2, hb⟩ 1 hsecond) y

/-! ## The result array of the call -/

/-- What the [16, 1, 128] result array ends holding: row `b` holds, in every lane, the total of batch member `b`. -/
def rowTotals (c : Dev nD) : Buf (Elt Ideal) ((c : Thread nD τ).loc main_v0) := fun y =>
  batchTotal (V m c main_arg0) (V m c main_arg1) (V m c main_arg2) (V m c main_arg3) ⟨(y 0).val, (y 0).isLt⟩

/-- What a writing-back point writes back is its block of `rowTotals`. -/
theorem flushed_eq (c : Dev nD) (t : Fin cfg0.N) (hf : (cfg0.win 4).flush t = true) :
    (dats m 0 c).flushed 4 t = ((cfg0.win 4).blk t).view.read (Elt Ideal) (rowTotals m c) := by
  have h1 : t.val % 2 = 1 := (flush0_4 t).mp hf
  have hN : cfg0.N = 32 := N_0
  have hb : t.val / 2 < 16 := by have := t.isLt; omega
  obtain ⟨-, -, -, -, e0, e1, e2⟩ := index_facts t
  show (cfg0.win 4).cut (grid0.coords t) ((dats m 0 c).after 4 t) = _
  rw [after0_4]
  funext y
  rw [View.read_apply]
  show (outsAt0 m c t.val t.isLt).1 y = rowTotals m c (((cfg0.win 4).blk t).view.emb y)
  rw [lane_after_odd m c t h1 hb y]
  unfold rowTotals
  refine congrArg (batchTotal _ _ _ _) (Fin.ext ?_)
  show t.val / 2 = win0_4.index t (0 : Fin 3) * 1 + 1 * (y 0).val
  have hy : (y 0).val < 1 := (y 0).isLt
  omega

/-- An index of the result array is in point `t`'s block iff each coordinate is in the block's range on its axis. -/
theorem mem_block (t : Fin cfg0.N) (i : S16x1x128.Idx) :
    i ∈ ((cfg0.win 4).blk t).view.set ↔ ∀ a : Fin 3,
      win0_4.index t a * S1x1x128.size a ≤ (i a).val ∧ (i a).val < win0_4.index t a * S1x1x128.size a + S1x1x128.size a := by
  show i ∈ ((View.whole main_v0).slice (win0_4.rect t)).set ↔ _
  rw [View.set_slice_whole, Rect.mem_set_unit]
  exact Iff.rfl

/-- Row `b` of the result array is written back after point `2 · b + 1`; so the array ends at `rowTotals`. -/
theorem final (c : Dev nD) : (dats m 0 c).arrAt 4 cfg0.N = rowTotals m c :=
  (dats m 0 c).arrAt_eq_of_cover 4 (rowTotals m c) (flushed_eq m c) fun i => by
    have hN : cfg0.N = 32 := N_0
    have hi0 : (i 0).val < 16 := (i 0).isLt
    have hi1 : (i 1).val < 1 := (i 1).isLt
    have hi2 : (i 2).val < 128 := (i 2).isLt
    have hlt : 2 * (i 0).val + 1 < cfg0.N := by omega
    have hv : (⟨2 * (i 0).val + 1, hlt⟩ : Fin cfg0.N).val = 2 * (i 0).val + 1 := rfl
    obtain ⟨-, -, -, -, e0, e1, e2⟩ := index_facts ⟨2 * (i 0).val + 1, hlt⟩
    refine ⟨⟨2 * (i 0).val + 1, hlt⟩, (flush0_4 _).mpr (by rw [hv]; omega), ?_⟩
    rw [mem_block]
    intro a
    match a with
    | ⟨0, _⟩ =>
      show win0_4.index ⟨2 * (i 0).val + 1, hlt⟩ (0 : Fin 3) * 1 ≤ (i 0).val
        ∧ (i 0).val < win0_4.index ⟨2 * (i 0).val + 1, hlt⟩ (0 : Fin 3) * 1 + 1
      rw [e0, hv]; omega
    | ⟨1, _⟩ =>
      show win0_4.index ⟨2 * (i 0).val + 1, hlt⟩ (1 : Fin 3) * 1 ≤ (i 1).val
        ∧ (i 1).val < win0_4.index ⟨2 * (i 0).val + 1, hlt⟩ (1 : Fin 3) * 1 + 1
      rw [e1]; omega
    | ⟨2, _⟩ =>
      show win0_4.index ⟨2 * (i 0).val + 1, hlt⟩ (2 : Fin 3) * 128 ≤ (i 2).val
        ∧ (i 2).val < win0_4.index ⟨2 * (i 0).val + 1, hlt⟩ (2 : Fin 3) * 128 + 128
      rw [e2]; omega

/-! ## The host operations after the call -/

/-- The host operations after the call, as one function of the call's result array: lane 0 of every row, the
    sixteen numbers added from zero, the sum divided by the word of 16 · 512 · 512. -/
def hostTail (A : (⟨S16x1x128, .f32⟩ : BufTy).Contents (Elt Ideal)) : (⟨S_, .f32⟩ : BufTy).Contents (Elt Ideal) :=
  Host.divf (F := Ideal)
    (Host.reduceAdd (F := Ideal)
      (shapeCast S16 (extractStridedSlice S16x1x1 ![0, 0, 0] A Facts₀.slices_S16x1x128_S16x1x1_0_0_0)
        Facts₀.shapeCasts_S16x1x1_S16)
      (constant (F := Ideal) S_ .f32 0x00000000#32) Facts₀.reducesTo_S16_S_d0 Facts₀.h_S_)
    (constant (F := Ideal) S_ .f32 0x4A800000#32)

/-- Lane 0 of row `b`, as the slice and the reshape read it. -/
theorem lane_zero_apply (A : (⟨S16x1x128, .f32⟩ : BufTy).Contents (Elt Ideal)) (b : Fin 16) :
    shapeCast S16 (extractStridedSlice S16x1x1 ![0, 0, 0] A Facts₀.slices_S16x1x128_S16x1x1_0_0_0)
        Facts₀.shapeCasts_S16x1x1_S16 (ix1 b)
      = A (ix3 b (0 : Fin 1) (0 : Fin 128)) := by
  refine (shapeCast_apply _ _ (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ A _ (ix3 b (0 : Fin 1) (0 : Fin 1)) (ix3 b (0 : Fin 1) (0 : Fin 128)) fun a => ?_
    match a with
    | ⟨0, _⟩ => show b.val = 0 + b.val; omega
    | ⟨1, _⟩ => rfl
    | ⟨2, _⟩ => rfl

/-- The tail at its one index. -/
theorem hostTail_apply (A : (⟨S16x1x128, .f32⟩ : BufTy).Contents (Elt Ideal)) (j : S_.Idx) :
    hostTail A j
      = Ideal.div (Ideal.ofBits .f32 0x00000000#32 + ∑ b : Fin 16, A (ix3 b (0 : Fin 1) (0 : Fin 128)))
          (Ideal.ofBits .f32 0x4A800000#32) := by
  have hsum : Host.reduceAdd (F := Ideal)
      (shapeCast S16 (extractStridedSlice S16x1x1 ![0, 0, 0] A Facts₀.slices_S16x1x128_S16x1x1_0_0_0)
        Facts₀.shapeCasts_S16x1x1_S16)
      (constant (F := Ideal) S_ .f32 0x00000000#32) Facts₀.reducesTo_S16_S_d0 Facts₀.h_S_ j
      = Ideal.ofBits .f32 0x00000000#32 + ∑ b : Fin 16, A (ix3 b (0 : Fin 1) (0 : Fin 128)) := by
    simp only [Host.reduceAdd, Ideal.hostReduceAdd_def]
    refine (Ideal.hostReduceAdd_total Facts₀.reducesTo_S16_S_d0 (fun b => b.elim0) _ _ j).trans ?_
    refine congrArg₂ (· + ·) rfl ?_
    refine (Cert.SumForms.sum_idx1 _).trans (Finset.sum_congr rfl fun b _ => lane_zero_apply A b)
  unfold hostTail
  exact congrArg (fun z => Ideal.div z (Ideal.ofBits .f32 0x4A800000#32)) hsum

/-- The result buffer after the run: the tail of the call's result array. -/
theorem tail_result (c : Dev nD) :
    Pipeline.afterTail₀ cfgs (dats m) 0 (V0 m) [hostOps1] c main_v4 = hostTail (rowTotals m c) := by
  unfold Pipeline.afterTail₀
  show StableHlo.after (hostOps1 (F := Ideal)) _ (Proc.devRef .tc main_v4) = _
  after_results
  have hA : Pipeline.withArrays (cfgs 0).spec c (V0 m c) (fun w => (dats m 0 c).arrAt w (cfgs 0).N)
      (Proc.devRef .tc main_v0) = rowTotals m c :=
    (Pipeline.withArrays_arr spec0 launch0.win.arr_inj c _ _ 4).trans (final m c)
  rw [hA]
  rfl

/-- The result buffer after the run holds the loss of the argument arrays. -/
theorem result_eq (c : Dev nD) :
    Pipeline.afterTail₀ cfgs (dats m) 0 (V0 m) [hostOps1] c main_v4
      = fun _ => loss (m ((c.tc : Thread nD τ).loc main_arg0)) (m ((c.tc : Thread nD τ).loc main_arg1))
          (m ((c.tc : Thread nD τ).loc main_arg2)) (m ((c.tc : Thread nD τ).loc main_arg3)) := by
  rw [tail_result]
  funext j
  rw [hostTail_apply]
  rfl

/-! ## The run, read -/

/-- Every weakly fair execution of the kernel's program terminates with the result buffer at the loss of the argument
    arrays, and the argument arrays unchanged. -/
theorem run : θ_run defs (onTc (τ := τ) (main (F := Ideal))) ⟨m, fun _ => 0, ρ⟩ fun r => ∀ c : Dev nD,
      r.2.mem ((c.tc : Thread nD τ).loc main_v4)
        = (fun _ => loss (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v4 (Pipeline.mem_restRefs_of main_v4 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KernelValue

end
-- ==== Proof.LibAxisSums.lean ====
/-
  Sums of an array along its outer axes, read at an index.

  Reducing a matrix `[a, b]` along its first axis gives a vector `[b]` whose entry `j` is the sum of column `j`:
  the `a` entries `(k, j)`. Reducing a rank-3 array `[a, b, c]` along its first and last axes together gives a
  vector `[b]` whose entry `i` is the sum of the slab with middle coordinate `i`: the `a · c` entries `(p, i, q)`,
  added to the initial value. Every index is written by its coordinates.
-/
import Idealize.ShloMosaic.PureOps.Ideal.Laws
import Idealize.ShloMosaic.Lib.ValueIdx

namespace Cert.AxisSums

open Idealize.ShloMosaic Idealize.ShloMosaic.ValueIdx

/-- The index of the matrix that reduces to `j` along the first axis and has `k` there is `(k, j)`. -/
theorem lift_cols {a b : ℕ} (h : (⟨2, ![a, b]⟩ : Shape).Reduces [0] ⟨1, ![b]⟩) (j : Fin b)
    (k : Fin ((⟨2, ![a, b]⟩ : Shape).size 0)) : h.lift (ix1 j) k = ix2 (⟨k.val, k.isLt⟩ : Fin a) j := by
  funext d; apply Fin.ext
  match d with
  | ⟨0, _⟩ => rfl
  | ⟨1, _⟩ => rfl

/-- A float sum down the columns of a matrix, from the zero word, at `j`: the sum of column `j`. -/
theorem multiReduction_add_cols {a b : ℕ} (src : FVec Ideal ⟨2, ![a, b]⟩ .f32)
    (h : (⟨2, ![a, b]⟩ : Shape).Reduces [0] ⟨1, ![b]⟩) (j : Fin b) :
    multiReduction .add [0] ⟨1, ![b]⟩ src 0x00000000#32 h (.inl rfl) rfl (ix1 j) = ∑ k : Fin a, src (ix2 k j) :=
  (Ideal.multiReduction_add_single src 0x00000000#32 h (.inl rfl) rfl (ix1 j)).trans
    (Finset.sum_congr rfl fun k _ => congrArg src (lift_cols h j k))

/-- The indices of a rank-3 array are the triples of its coordinates. -/
def idxEquiv3 {a b c : ℕ} : (⟨3, ![a, b, c]⟩ : Shape).Idx ≃ Fin a × Fin b × Fin c where
  toFun j := (j 0, j 1, j 2)
  invFun p := ix3 p.1 p.2.1 p.2.2
  left_inv j := (eq_ix3 j).symm
  right_inv _ := rfl

/-- A sum over all indices of a rank-3 array, coordinate by coordinate. -/
theorem sum_idx3 {M : Type*} [AddCommMonoid M] {a b c : ℕ} (f : (⟨3, ![a, b, c]⟩ : Shape).Idx → M) :
    ∑ j, f j = ∑ p : Fin a, ∑ i : Fin b, ∑ q : Fin c, f (ix3 p i q) := by
  rw [← Equiv.sum_comp (idxEquiv3 (a := a) (b := b) (c := c)).symm f, Fintype.sum_prod_type]
  exact Finset.sum_congr rfl fun p _ => Fintype.sum_prod_type _

/-- An index of `[a, b, c]` reduces, along the first and last axes, to its middle coordinate. -/
theorem drop_outer {a b c : ℕ} (h : (⟨3, ![a, b, c]⟩ : Shape).ReducesTo [0, 2] ⟨1, ![b]⟩)
    (p : Fin a) (i : Fin b) (q : Fin c) : h.drop (ix3 p i q) = ix1 i := by
  funext d; apply Fin.ext
  match d with
  | ⟨0, _⟩ => rfl

/-- The host's sum of `[a, b, c]` along its first and last axes, at `i`: the initial value plus the sum of the
    slab `(·, i, ·)`. -/
theorem hostReduceAdd_outer {a b c : ℕ} (h : (⟨3, ![a, b, c]⟩ : Shape).ReducesTo [0, 2] ⟨1, ![b]⟩)
    (x : (⟨3, ![a, b, c]⟩ : Shape).Idx → EReal) (init : EReal) (i : Fin b) :
    Ideal.hostReduceAdd h x init (ix1 i) = init + ∑ p : Fin a, ∑ q : Fin c, x (ix3 p i q) := by
  unfold Ideal.hostReduceAdd
  congr 1
  rw [Finset.sum_filter, sum_idx3]
  refine Finset.sum_congr rfl fun p _ => ?_
  rw [Finset.sum_comm]
  refine Finset.sum_congr rfl fun q _ => ?_
  have hd : ∀ i' : Fin b, (h.drop (ix3 p i' q) = ix1 i) ↔ i' = i := fun i' => by
    rw [drop_outer h p i' q]
    constructor
    · intro e; exact congrFun e 0
    · rintro rfl; rfl
  simp only [hd, Finset.sum_ite_eq', Finset.mem_univ, if_true]

end Cert.AxisSums
-- ==== Proof.RefValue.lean ====
/-
  What the reference computes is the loss.

  The reference forms both Gram arrays whole — entry `(b, i, j)` the sum over all 4096 time steps —, divides each by
  4096, subtracts, squares, adds every entry up from zero and divides by the number of entries. Read one operation at a
  time at an index written by its coordinates, that is the loss as stated, the one sum over all entries taken batch
  member by batch member and pair by pair.
-/
import proofs.«164870_j85555748537092_2_alg».proof.Proof.Gen.ReferenceIdeal.Read
import proofs.«164870_j85555748537092_2_alg».proof.Proof.Spec
import proofs.«164870_j85555748537092_2_alg».proof.Proof.LibAxisSums

noncomputable section

namespace Cert.ReferenceIdeal.RefValue

open Cert.ReferenceIdeal Cert.ReferenceIdeal.Read Cert.GramLoss
open Idealize.ShloMosaic Idealize.ShloMosaic.ValueIdx

/-! ## The operand indices of the two products, by coordinates -/

theorem lhs_first (b : Fin 16) (i j : Fin 512) (k : Fin 4096) :
    lidx_main_v0 (ix3 b i j) k = ix3 b i k := by
  funext a
  match a with
  | ⟨0, _⟩ => rfl
  | ⟨1, _⟩ => rfl
  | ⟨2, _⟩ => rfl

theorem rhs_first (b : Fin 16) (i j : Fin 512) (k : Fin 4096) :
    ridx_main_v0 (ix3 b i j) k = ix3 b j k := by
  funext a
  match a with
  | ⟨0, _⟩ => rfl
  | ⟨1, _⟩ => rfl
  | ⟨2, _⟩ => rfl

theorem lhs_second (b : Fin 16) (i j : Fin 512) (k : Fin 4096) :
    lidx_main_v3 (ix3 b i j) k = ix3 b i k := by
  funext a
  match a with
  | ⟨0, _⟩ => rfl
  | ⟨1, _⟩ => rfl
  | ⟨2, _⟩ => rfl

theorem rhs_second (b : Fin 16) (i j : Fin 512) (k : Fin 4096) :
    ridx_main_v3 (ix3 b i j) k = ix3 b j k := by
  funext a
  match a with
  | ⟨0, _⟩ => rfl
  | ⟨1, _⟩ => rfl
  | ⟨2, _⟩ => rfl

/-- The squared difference the reference forms at `(b, i, j)`. -/
theorem square_apply (x0 x1 x2 x3 : (⟨S16x512x4096, .f32⟩ : BufTy).Contents (Elt Ideal)) (b : Fin 16) (i j : Fin 512) :
    val_main_v7 (F := Ideal) x0 x1 x2 x3 (ix3 b i j) = sqDiff x0 x1 x2 x3 b i j := by
  rw [val_main_v7_apply, val_main_v6_apply, val_main_v2_apply, val_main_v5_apply, val_main_v0_apply, val_main_v3_apply,
    val_main_v1_apply, val_main_v4_apply, val_main_cst_apply, val_main_cst_0_apply]
  simp only [lhs_first, rhs_first, lhs_second, rhs_second]
  rfl

/-- The reference's result, at its one index, is the loss. -/
theorem result_eq (x0 x1 x2 x3 : (⟨S16x512x4096, .f32⟩ : BufTy).Contents (Elt Ideal)) :
    val_main_v9 (F := Ideal) x0 x1 x2 x3 = fun _ => loss x0 x1 x2 x3 := by
  funext j
  rw [val_main_v9_apply, val_main_v8_apply, val_main_cst_1_apply, val_main_cst_2_apply, Cert.AxisSums.sum_idx3]
  simp only [square_apply]
  rfl

end Cert.ReferenceIdeal.RefValue

end
-- ==== Proof.lean ====
/-
  The kernel and its reference compute the same loss.

  Given four arrays s1, s2, t1, t2 of shape [16, 512, 4096], both programs return one number: the mean over the batch
  members `b` and the pairs `(i, j)` of the squared difference of two Gram entries divided by 4096,
      S (b, i, j) = Σ_t s2 (b, i, t) · s1 (b, j, t)      T (b, i, j) = Σ_t t2 (b, i, t) · t1 (b, j, t).
  The reference forms both Gram arrays whole, divides, subtracts, squares, adds every entry up and divides by the
  number of entries. The kernel visits each batch member twice, once per half of the time axis; it accumulates both
  Gram matrices from zero over the two visits and, on the second, multiplies each by 1/4096, subtracts, squares and adds
  the 512 · 512 squares into one number per batch member; the sixteen numbers are then added and divided on the host.

  Over the extended reals the two are one function of the arrays (Proof/Spec.lean: `loss`): a sum over the time axis
  is the sum of its two halves; the product with 1/4096 is the quotient by 4096; and the one sum over all entries is the
  sum over the batch members of the sums over the pairs. None of this needs an entry to be finite, so the precondition
  is never opened. Narrowing a factor to half precision before a product is the identity here, and nothing of the
  program was rewritten for the idealization, so that conjunct is trivially true.

  The kernel's side is read off its run (Proof/KernelValue.lean, over Proof/Pieces.lean, Proof/Payloads.lean and
  Proof/BatchValue.lean), the reference's off its run one operation at a time (Proof/RefValue.lean).
-/
import proofs.«164870_j85555748537092_2_alg».proof.Defs
import proofs.«164870_j85555748537092_2_alg».proof.Proof.Gen.Kernel
import proofs.«164870_j85555748537092_2_alg».proof.Proof.Gen.Kernel.Skeleton
import proofs.«164870_j85555748537092_2_alg».proof.Proof.Gen.Kernel.Launch
import proofs.«164870_j85555748537092_2_alg».proof.Proof.Gen.Kernel.Points
import proofs.«164870_j85555748537092_2_alg».proof.Proof.Gen.Kernel.Frame
import proofs.«164870_j85555748537092_2_alg».proof.Proof.Gen.KernelIdeal
import proofs.«164870_j85555748537092_2_alg».proof.Proof.Gen.KernelIdeal.Skeleton
import proofs.«164870_j85555748537092_2_alg».proof.Proof.Gen.KernelIdeal.Launch
import proofs.«164870_j85555748537092_2_alg».proof.Proof.Gen.KernelIdeal.Points
import proofs.«164870_j85555748537092_2_alg».proof.Proof.Gen.KernelIdeal.Frame
import proofs.«164870_j85555748537092_2_alg».proof.Proof.Gen.ReferenceIdeal
import proofs.«164870_j85555748537092_2_alg».proof.Proof.Gen.ReferenceIdeal.Run
import proofs.«164870_j85555748537092_2_alg».proof.Proof.Gen.ReferenceIdeal.Read
import proofs.«164870_j85555748537092_2_alg».proof.Proof.Gen.Pre_finite_inputs
import proofs.«164870_j85555748537092_2_alg».proof.Proof.KernelValue
import proofs.«164870_j85555748537092_2_alg».proof.Proof.RefValue
import Idealize.ShloMosaic.Adequacy
import Idealize.ShloMosaic.Init

noncomputable section

namespace Cert.Proof

open Idealize.ShloMosaic Idealize.SL.Sem

/-- The kernel's program runs and leaves its arguments unchanged. -/
theorem frame_kernel : Cert.frame_Kernel := fun m ρ _ => Cert.Kernel.Gen.frame m ρ

/-- So does the program read at the extended reals. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the idealization. -/
theorem preserves : Cert.preserves_Kernel_KernelIdeal := trivial

/-- From memories that agree on the four arrays both programs end with their result at the loss of those arrays. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2.1,
    (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
